-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 62
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x600000, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S700000, .i32⟩
  | .hbm, ⟨27, _⟩ => ⟨S700000, .i1⟩
  | .hbm, ⟨28, _⟩ => ⟨S_, .i32⟩
  | .hbm, ⟨29, _⟩ => ⟨S700000, .i32⟩
  | .hbm, ⟨30, _⟩ => ⟨S700000, .i32⟩
  | .hbm, ⟨31, _⟩ => ⟨S700000, .i32⟩
  | .hbm, ⟨32, _⟩ => ⟨S700000x1, .i32⟩
  | .hbm, ⟨33, _⟩ => ⟨S700000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S700000, .f32⟩
  | .hbm, ⟨44, _⟩ => ⟨S100000x128, .f32⟩
  | .hbm, ⟨45, _⟩ => ⟨S_, .i32⟩
  | .hbm, ⟨46, _⟩ => ⟨S700000, .i32⟩
  | .hbm, ⟨47, _⟩ => ⟨S700000, .i1⟩
  | .hbm, ⟨48, _⟩ => ⟨S_, .i32⟩
  | .hbm, ⟨49, _⟩ => ⟨S700000, .i32⟩
  | .hbm, ⟨50, _⟩ => ⟨S700000, .i32⟩
  | .hbm, ⟨51, _⟩ => ⟨S700000, .i32⟩
  | .hbm, ⟨52, _⟩ => ⟨S700000x1, .i32⟩
  | .hbm, ⟨53, _⟩ => ⟨S700000x128, .f32⟩
  | .hbm, ⟨54, _⟩ => ⟨S700000x1, .f32⟩
  | .hbm, ⟨55, _⟩ => ⟨S700000x128, .f32⟩
  | .hbm, ⟨56, _⟩ => ⟨S700000x128, .f32⟩
  | .hbm, ⟨57, _⟩ => ⟨S_, .f32⟩
  | .hbm, ⟨58, _⟩ => ⟨S100000x128, .f32⟩
  | .hbm, ⟨59, _⟩ => ⟨S700000x1, .i32⟩
  | .hbm, ⟨60, _⟩ => ⟨S100000x128, .f32⟩
  | .hbm, ⟨61, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x600000, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S700000, .i32⟩
  | .hbm, ⟨27, _⟩ => ⟨S700000, .i1⟩
  | .hbm, ⟨28, _⟩ => ⟨S_, .i32⟩
  | .hbm, ⟨29, _⟩ => ⟨S700000, .i32⟩
  | .hbm, ⟨30, _⟩ => ⟨S700000, .i32⟩
  | .hbm, ⟨31, _⟩ => ⟨S700000, .i32⟩
  | .hbm, ⟨32, _⟩ => ⟨S700000x1, .i32⟩
  | .hbm, ⟨33, _⟩ => ⟨S700000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S700000, .f32⟩
  | .hbm, ⟨44, _⟩ => ⟨S100000x128, .f32⟩
  | .hbm, ⟨45, _⟩ => ⟨S_, .i32⟩
  | .hbm, ⟨46, _⟩ => ⟨S700000, .i32⟩
  | .hbm, ⟨47, _⟩ => ⟨S700000, .i1⟩
  | .hbm, ⟨48, _⟩ => ⟨S_, .i32⟩
  | .hbm, ⟨49, _⟩ => ⟨S700000, .i32⟩
  | .hbm, ⟨50, _⟩ => ⟨S700000, .i32⟩
  | .hbm, ⟨51, _⟩ => ⟨S700000, .i32⟩
  | .hbm, ⟨52, _⟩ => ⟨S700000x1, .i32⟩
  | .hbm, ⟨53, _⟩ => ⟨S700000x128, .f32⟩
  | .hbm, ⟨54, _⟩ => ⟨S700000x1, .f32⟩
  | .hbm, ⟨55, _⟩ => ⟨S700000x128, .f32⟩
  | .hbm, ⟨56, _⟩ => ⟨S700000x128, .f32⟩
  | .hbm, ⟨57, _⟩ => ⟨S_, .f32⟩
  | .hbm, ⟨58, _⟩ => ⟨S100000x128, .f32⟩
  | .hbm, ⟨59, _⟩ => ⟨S700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel's run, with its result named.

  The program is two row-tiled kernel regions among stretches of host operations. Its run passes through seven
  boundaries; the buffer contents at each are a fold from the launch memory: a host stretch applies its
  operations, a region replaces its arrays by what its write-backs leave and keeps every other buffer. Here the
  launch is run once more over the same segments, and the final memory is read at EVERY unscoped buffer as the
  last boundary's contents. The result buffer is the second region's output array, so it ends as that region's
  write-backs folded over the grid; the argument arrays end as launched.
-/
import proofs.«142149_j18708877541515_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every final memory holds, at each unscoped buffer of each core,
    the contents of the last boundary of the fold. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array named: the second region's output array after its write-backs; the
    argument arrays as launched. -/
theorem run_result : θ_run defs (onTc (τ := τ) (main (F := F))) ⟨m, fun _ => 0, ρ⟩ (fun r => ∀ c : Dev nD,
      r.2.mem ((c.tc : Thread nD τ).loc main_v44) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v44 (by decide))).trans (W6_arr m ρ c 2),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)
    (run_buffers m ρ)

end Cert.KernelIdeal.Whole

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.Project.lean ====
/-
  The first region: the projection x · W, row block by row block.

  The region's grid has 20 points; point t stages rows 5000·t … 5000·t + 4999 of x (all 128 columns), the whole
  128 × 128 matrix W, and writes the same rows of the result. The body changes both operands' float format
  (the identity on the extended reals) and multiplies them on the matrix unit into a zero accumulator, so at
  row p, column q of the block it stores 0 + ∑ k < 128, x-block (p, k) · W (k, q). Whatever the region finds
  in its two input arrays, the output array therefore ends, at (r, c), at ∑ k < 128, x (r, k) · w (k, c): each
  point writes exactly its rows of that one whole-array function, and the 20 row blocks cover the 100000 rows.
-/
import proofs.«142149_j18708877541515_1_alg».proof.Proof.Gen.KernelIdeal.Frame
import proofs.«142149_j18708877541515_1_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)

/-- The matrix product of a 100000 × 128 array with a 128 × 128 array, entry by entry. -/
def rowsTimes (x : FVec Ideal S100000x128 .f32) (w : FVec Ideal S128x128 .f32) : FVec Ideal S100000x128 .f32 :=
  fun i => ∑ k : Fin 128, x (ix2 (i 0) k) * w (ix2 k (i 1))

/-- The block product's left index keeps the result's row. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The block product's right index keeps the result's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's stored value at an entry of a block: the row of the x-block against the column of W. -/
theorem stored_apply (v0 : FVec Ideal S5000x128 .f32) (v2 : FVec Ideal S128x128 .f32) (j : S5000x128.Idx) :
    k0_pay1 v0 v2 j = ∑ k : Fin 128, v0 (ix2 (j 0) k) * v2 (ix2 k (j 1)) := by
  unfold k0_pay1
  show FloatOps.matmul dot_S5000x128_S128x128_S5000x128_1_0_0_1_n_n none (truncf (F := Ideal) .bf16 v0 bitsLt_bf16_f32)
    (truncf (F := Ideal) .bf16 v2 bitsLt_bf16_f32) (constant (F := Ideal) S5000x128 .f32 0x00000000#32) j = _
  rw [Ideal.matmul_constant_zero_apply]
  refine (Contract2.sum_contr_eq_sum_fin dot_S5000x128_S128x128_S5000x128_1_0_0_1_n_n rfl rfl rfl rfl lhs_row rhs_col _ _ j).trans ?_
  rfl

/-- A block whose row is x's row r, beside a block that is the whole of w, stores the product's entry at
    (r, the same column). -/
theorem stored_eq_rowsTimes (x0 : FVec Ideal S5000x128 .f32) (x1 : FVec Ideal S128x128 .f32)
    (x : FVec Ideal S100000x128 .f32) (w : FVec Ideal S128x128 .f32) (j : S5000x128.Idx) (i : S100000x128.Idx)
    (h0 : ∀ k : Fin 128, x0 (ix2 (j 0) k) = x (ix2 (i 0) k)) (h1 : ∀ k : Fin 128, x1 (ix2 k (j 1)) = w (ix2 k (i 1))) :
    k0_pay1 x0 x1 j = rowsTimes x w i := by
  rw [stored_apply]
  unfold rowsTimes
  exact Finset.sum_congr rfl fun k _ => by rw [h0 k, h1 k]

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: x's and the result's blocks are row block t, W's is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … of the product of the arrays the region finds. -/
theorem flushed_eq (c : Dev nD) (t : Fin cfg0.N) :
    (dat0 V c).flushed 2 t = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := index_facts t
  funext j
  refine stored_eq_rowsTimes (iblk0 V c 0 t) (iblk0 V c 1 t) (V c main_arg0) (V c main_arg1) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg1 (((cfg0.win 1).blk t).view.emb (ix2 k (j 1))) = V c main_arg1 (ix2 k ((((cfg0.win 2).blk t).view.emb j) 1))
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000, and every point writes back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after its write-backs: the product of the two arrays it found. -/
theorem final (c : Dev nD) : (dat0 V c).arrAt 2 cfg0.N = rowsTimes (V c main_arg0) (V c main_arg1) :=
  (dat0 V c).arrAt_eq_of_cover 2 (rowsTimes (V c main_arg0) (V c main_arg1)) (fun t _ => flushed_eq V c t) covered

end Cert.KernelIdeal.Project

end
-- ==== Proof.BiasRelu.lean ====
/-
  The second region: the bias added and the result clamped at zero, row block by row block.

  The region's grid has 20 points; point t stages rows 5000·t … 5000·t + 4999 of the aggregate (all 128
  columns), the whole bias vector, and writes the same rows of the result. The body adds to every row of the
  block the bias (a [128] vector viewed as one row and repeated over the rows) and takes the maximum with the
  zero word. So whatever the region finds in its two input arrays, the output array ends, at (r, c), at
  max (agg (r, c) + b c, 0): each point writes exactly its rows of that one whole-array function, and the 20
  row blocks cover the 100000 rows.
-/
import proofs.«142149_j18708877541515_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

/-- The aggregate plus the bias of its column, clamped below at the zero word. -/
def biased (agg : FVec Ideal S100000x128 .f32) (b : FVec Ideal S128 .f32) : FVec Ideal S100000x128 .f32 :=
  fun i => max (agg i + b (ix1 (i 1))) (Ideal.ofBits .f32 0x00000000#32)

/-- The body's stored value at row p, column q of a block: the block's entry plus the bias at q, clamped. -/
theorem stored_apply (v0 : Vec Ideal S128 .f32) (v3 : Vec Ideal S5000x128 .f32) (p : Fin 5000) (q : Fin 128) :
    k1_pay1 v0 v3 (ix2 p q) = max (v3 (ix2 p q) + v0 (ix1 q)) (Ideal.ofBits .f32 0x00000000#32) := by
  unfold k1_pay1
  show max (shapeCast S5000x128 v3 shapeCasts_S5000x128_S5000x128 (ix2 p q)
      + broadcastTo S5000x128 (shapeCast S1x128 v0 shapeCasts_S128_S1x128) broadcasts_S1x128_S5000x128 (ix2 p q))
    (Ideal.ofBits .f32 0x00000000#32) = _
  rw [shapeCast_self, broadcastTo_1b_ab_apply, shapeCast_a_1a_apply]

/-- A block entry that is the aggregate's entry at i, beside a bias block that is the bias vector, stores the
    clamped sum at i. -/
theorem stored_eq_biased (x1 : Vec Ideal S128 .f32) (x0 : Vec Ideal S5000x128 .f32)
    (agg : FVec Ideal S100000x128 .f32) (b : FVec Ideal S128 .f32) (j : S5000x128.Idx) (i : S100000x128.Idx)
    (h0 : x0 j = agg i) (h1 : x1 (ix1 (j 1)) = b (ix1 (i 1))) :
    k1_pay1 x1 x0 j = biased agg b i := by
  obtain ⟨p, q, rfl⟩ : ∃ (p : Fin 5000) (q : Fin 128), j = ix2 p q := ⟨j 0, j 1, eq_ix2 j⟩
  rw [stored_apply]
  unfold biased
  rw [h0, ← h1]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the aggregate's and the result's blocks are row block t, the bias's is
    the whole vector. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is rows 5000·t … of the clamped sum of the arrays the region finds. -/
theorem flushed_eq (c : Dev nD) (t : Fin cfg1.N) :
    (dat1 V c).flushed 2 t = ((cfg1.win 2).blk t).view.read (Elt Ideal) (biased (V c main_v43) (V c main_arg2)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := index_facts t
  funext j
  refine stored_eq_biased (iblk1 V c 1 t) (iblk1 V c 0 t) (V c main_v43) (V c main_arg2) j (((cfg1.win 2).blk t).view.emb j) ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_arg2 (((cfg1.win 1).blk t).view.emb (ix1 (j 1))) = V c main_arg2 (ix1 ((((cfg1.win 2).blk t).view.emb j) 1))
    refine congrArg (V c main_arg2) (funext fun a => Fin.ext ?_)
    match a with
    | ⟨0, _⟩ => show win1_1.index t (0 : Fin 1) * 128 + 1 * (j 1).val = win1_2.index t (1 : Fin 2) * 128 + 1 * (j 1).val; omega

/-- An index of the result is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r lies in the block of point r / 5000, and every point writes back. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after its write-backs: the clamped sum of the two arrays it found. -/
theorem final (c : Dev nD) : (dat1 V c).arrAt 2 cfg1.N = biased (V c main_v43) (V c main_arg2) :=
  (dat1 V c).arrAt_eq_of_cover 2 (biased (V c main_v43) (V c main_arg2)) (fun t _ => flushed_eq V c t) covered

end Cert.KernelIdeal.BiasRelu

end
-- ==== Proof.Spec.lean ====
/-
  The graph convolution both programs compute, as named functions.

  The edge list is a 2 × 600000 integer array: row 0 the sources, row 1 the targets. Every node is given a
  self-loop, so the 700000 sources (and targets) are the row followed by 0, 1, …, 99999. A node's degree is
  the number of the 700000 targets equal to it (a sum of ones scattered to the targets); its weight is
  degree^(-1/2) where the degree is positive and 0 elsewhere; an edge's weight is the product of its two
  endpoints' weights (an endpoint below zero counts from the end, as indexing does). Given projected
  features h (one row per node) the aggregate adds, into row dst e, the row h (src e) scaled by edge e's
  weight, for every edge e. The layer's result is the aggregate plus the bias of the column, clamped below at
  zero. Nothing here is opened by the proof: the two programs agree on all of it word for word, and differ only
  in how h and the closing bias-and-clamp are computed.
-/
import proofs.«142149_j18708877541515_1_alg».proof.Proof.Gen.ReferenceIdeal

noncomputable section

namespace Cert.Gcn

open Cert.ReferenceIdeal Cert.ReferenceIdeal.Gen Idealize.ShloMosaic

variable {F : FTy → Type} [FloatOps F]

/-- The edges' sources: row 0 of the edge list, then every node (the self-loops). -/
def sources (ei : (⟨S2x600000, .i32⟩ : BufTy).Contents (Elt F)) : (⟨S700000, .i32⟩ : BufTy).Contents (Elt F) :=
  concatenate S700000 0 [⟨S600000, shapeCast S600000 (extractStridedSlice S1x600000 ![0, 0] ei slices_S2x600000_S1x600000_0_0) shapeCasts_S1x600000_S600000⟩,
    ⟨S100000, iotaInDim S100000 32 0⟩] concatenates_S600000_S100000_S700000_d0

/-- The edges' targets: row 1 of the edge list, then every node (the self-loops). -/
def targets (ei : (⟨S2x600000, .i32⟩ : BufTy).Contents (Elt F)) : (⟨S700000, .i32⟩ : BufTy).Contents (Elt F) :=
  concatenate S700000 0 [⟨S600000, shapeCast S600000 (extractStridedSlice S1x600000 ![1, 0] ei slices_S2x600000_S1x600000_1_0) shapeCasts_S1x600000_S600000⟩,
    ⟨S100000, iotaInDim S100000 32 0⟩] concatenates_S600000_S100000_S700000_d0

/-- A node number below zero counts from the end: 100000 is added to it. -/
def fromEnd (v : (⟨S700000, .i32⟩ : BufTy).Contents (Elt F)) : (⟨S700000, .i32⟩ : BufTy).Contents (Elt F) :=
  select (cmpi .slt v (broadcastInDim S700000 ![] bcast_S_S700000 (constantI S_ 32 0#32)))
    (addi v (broadcastInDim S700000 ![] bcast_S_S700000 (constantI S_ 32 100000#32))) v

/-- A node's degree: one for every edge that targets it, summed from zero. -/
def degree (ei : (⟨S2x600000, .i32⟩ : BufTy).Contents (Elt F)) : (⟨S100000, .f32⟩ : BufTy).Contents (Elt F) :=
  Host.scatterAdd scatter_S100000_S700000x1_S700000_n_0_0_1
    (broadcastInDim S100000 ![] bcast_S_S100000 (constant S_ .f32 0x00000000#32))
    (broadcastInDim S700000x1 ![0] bcast_S700000_S700000x1_0 (targets (F := F) ei))
    (broadcastInDim S700000 ![] bcast_S_S700000 (constant S_ .f32 0x3F800000#32))

/-- A node's weight: degree^(-1/2) where the degree is positive, zero elsewhere. -/
def nodeWeight (ei : (⟨S2x600000, .i32⟩ : BufTy).Contents (Elt F)) : (⟨S100000, .f32⟩ : BufTy).Contents (Elt F) :=
  select (cmpf .ogt (degree (F := F) ei) (broadcastInDim S100000 ![] bcast_S_S100000 (constant S_ .f32 0x00000000#32)))
    (Host.rsqrt (degree (F := F) ei))
    (broadcastInDim S100000 ![] bcast_S_S100000 (id (constant S_ .f32 0x00000000#32)))

/-- An edge's weight: the product of its source's and its target's weights. -/
def edgeWeight (ei : (⟨S2x600000, .i32⟩ : BufTy).Contents (Elt F)) : (⟨S700000, .f32⟩ : BufTy).Contents (Elt F) :=
  mulf
    (Host.gather gather_S100000_S700000x1_S700000_n_0_n_n_0_1_1 (nodeWeight (F := F) ei)
      (broadcastInDim S700000x1 ![0] bcast_S700000_S700000x1_0 (fromEnd (F := F) (sources (F := F) ei))))
    (Host.gather gather_S100000_S700000x1_S700000_n_0_n_n_0_1_1 (nodeWeight (F := F) ei)
      (broadcastInDim S700000x1 ![0] bcast_S700000_S700000x1_0 (fromEnd (F := F) (targets (F := F) ei))))

/-- The aggregate of the rows of h over the edges given by their targets, sources and weights: into row
    dst e goes the row h (src e) scaled by w e, summed from zero over the edges. -/
def aggregateOver (dst src : (⟨S700000, .i32⟩ : BufTy).Contents (Elt F)) (w : (⟨S700000, .f32⟩ : BufTy).Contents (Elt F))
    (h : (⟨S100000x128, .f32⟩ : BufTy).Contents (Elt F)) : (⟨S100000x128, .f32⟩ : BufTy).Contents (Elt F) :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 dst)
    (mulf
      (Host.gather gather_S100000x128_S700000x1_S700000x128_1_0_n_n_0_1_1128 h
        (broadcastInDim S700000x1 ![0] bcast_S700000_S700000x1_0 (fromEnd (F := F) src)))
      (broadcastInDim S700000x128 ![0, 1] bcast_S700000x1_S700000x128_0_1
        (broadcastInDim S700000x1 ![0] bcast_S700000_S700000x1_0 w)))

/-- The aggregate of the rows of h over the graph the edge list gives. -/
def aggregate (h : (⟨S100000x128, .f32⟩ : BufTy).Contents (Elt F)) (ei : (⟨S2x600000, .i32⟩ : BufTy).Contents (Elt F)) :
    (⟨S100000x128, .f32⟩ : BufTy).Contents (Elt F) :=
  aggregateOver (targets (F := F) ei) (sources (F := F) ei) (edgeWeight (F := F) ei) h

/-- The closing step as the reference spells it: the bias, viewed as one row and repeated over the rows, added;
    then the maximum with zero. -/
def biasClamp (a : (⟨S100000x128, .f32⟩ : BufTy).Contents (Elt F)) (b : (⟨S128, .f32⟩ : BufTy).Contents (Elt F)) :
    (⟨S100000x128, .f32⟩ : BufTy).Contents (Elt F) :=
  maximumf
    (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

end Cert.Gcn

end
-- ==== Proof.HostStages.lean ====
/-
  The host stretches of the kernel program, read at the buffers that matter.

  Before the first region the program computes, from the edge list alone, the edges' sources and targets (with
  the self-loops) and every edge's weight; the first region then finds the argument arrays x and W as launched.
  Between the regions it aggregates the rows of the first region's output over the graph: read at the
  aggregate's buffer, that stretch is the specification's aggregation of whatever the first region left, over
  the sources, targets and weights computed before it (no region and no later operation writes those three
  buffers). The second region finds the bias as launched.
-/
import proofs.«142149_j18708877541515_1_alg».proof.Proof.Gen.KernelIdeal.Frame
import proofs.«142149_j18708877541515_1_alg».proof.Proof.Spec

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first region finds x as launched: no operation before it writes an argument. -/
theorem entry0_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp

/-- The first region finds W as launched. -/
theorem entry0_w (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  simp only [hostOps0, hostOps0_1, hostOps0_2]
  after_results_simp

set_option maxHeartbeats 4000000 in
/-- Before the first region the sources' buffer holds the edge list's sources with the self-loops. -/
theorem entry0_sources (c : Dev nD) :
    W3 m ρ c (Proc.devRef .tc main_v3) = Cert.Gcn.sources (F := F) (m ((c : Thread nD τ).loc main_arg3)) := by
  show StableHlo.after hostOps0_2 (StableHlo.after hostOps0_1 (StableHlo.after hostOps0 (W0 m ρ c))) (Proc.devRef .tc main_v3) = _
  simp only [hostOps0, hostOps0_1, hostOps0_2]
  after_results_simp
  rfl

set_option maxHeartbeats 4000000 in
/-- Before the first region the targets' buffer holds the edge list's targets with the self-loops. -/
theorem entry0_targets (c : Dev nD) :
    W3 m ρ c (Proc.devRef .tc main_v6) = Cert.Gcn.targets (F := F) (m ((c : Thread nD τ).loc main_arg3)) := by
  show StableHlo.after hostOps0_2 (StableHlo.after hostOps0_1 (StableHlo.after hostOps0 (W0 m ρ c))) (Proc.devRef .tc main_v6) = _
  simp only [hostOps0, hostOps0_1, hostOps0_2]
  after_results_simp
  rfl

set_option maxHeartbeats 8000000 in
/-- Before the first region the weights' buffer holds every edge's weight. -/
theorem entry0_weights (c : Dev nD) :
    W3 m ρ c (Proc.devRef .tc main_v29) = Cert.Gcn.edgeWeight (F := F) (m ((c : Thread nD τ).loc main_arg3)) := by
  show StableHlo.after hostOps0_2 (StableHlo.after hostOps0_1 (StableHlo.after hostOps0 (W0 m ρ c))) (Proc.devRef .tc main_v29) = _
  simp only [hostOps0, hostOps0_1, hostOps0_2]
  after_results_simp
  rfl

set_option maxHeartbeats 4000000 in
/-- The second region finds, in its first input array, the aggregation of what the first region left over the
    sources, targets and weights as they stand at the first region's exit. -/
theorem entry1_aggregate (c : Dev nD) :
    V5 m ρ c main_v43 = Cert.Gcn.aggregateOver (F := F) (W4 m ρ c (Proc.devRef .tc main_v6)) (W4 m ρ c (Proc.devRef .tc main_v3))
      (W4 m ρ c (Proc.devRef .tc main_v29)) (W4 m ρ c (Proc.devRef .tc main_v30)) := by
  show StableHlo.after hostOps1 (W4 m ρ c) (Proc.devRef .tc main_v43) = _
  simp only [hostOps1]
  after_results_simp
  rfl

/-- The first region leaves the sources, targets and weights as it found them, and its output array at its
    write-backs folded. -/
theorem exit0_sources (c : Dev nD) : W4 m ρ c (Proc.devRef .tc main_v3) = W3 m ρ c (Proc.devRef .tc main_v3) :=
  W4_of_ne m ρ c main_v3 (by decide)
theorem exit0_targets (c : Dev nD) : W4 m ρ c (Proc.devRef .tc main_v6) = W3 m ρ c (Proc.devRef .tc main_v6) :=
  W4_of_ne m ρ c main_v6 (by decide)
theorem exit0_weights (c : Dev nD) : W4 m ρ c (Proc.devRef .tc main_v29) = W3 m ρ c (Proc.devRef .tc main_v29) :=
  W4_of_ne m ρ c main_v29 (by decide)
theorem exit0_output (c : Dev nD) : W4 m ρ c (Proc.devRef .tc main_v30) = (dat0 (V3 m ρ) c).arrAt 2 cfg0.N :=
  W4_arr m ρ c 2

/-- The second region finds the bias as launched. -/
theorem entry1_bias (c : Dev nD) : V5 m ρ c main_arg2 = m ((c : Thread nD τ).loc main_arg2) :=
  ((W6_arr m ρ c 1).trans (((dat1 (V5 m ρ) c).arrAt_in 1 rfl _).trans (A_eq1 (V5 m ρ) c 1))).symm.trans (W6_main_arg2 m ρ c)

end Cert.KernelIdeal.Stages

end
-- ==== Proof.Result.lean ====
/-
  The kernel's result as one function of its four arguments.

  Reading the fold back from the result buffer: the second region's output is the clamped sum of bias and of
  what it found in its first input array; that array is the graph aggregation of what the first region left,
  over the sources, targets and weights the first host stretches computed from the edge list; and what the
  first region left is the product x · W of the argument arrays. So the kernel computes
  max (aggregate (x · W) + b, 0), the aggregation being the specification's.
-/
import proofs.«142149_j18708877541515_1_alg».proof.Proof.KernelRun
import proofs.«142149_j18708877541515_1_alg».proof.Proof.Project
import proofs.«142149_j18708877541515_1_alg».proof.Proof.BiasRelu
import proofs.«142149_j18708877541515_1_alg».proof.Proof.HostStages

set_option maxRecDepth 16384

noncomputable section

namespace Cert.KernelIdeal.Result

open Cert.KernelIdeal Cert.KernelIdeal.Gen
open Idealize.ShloMosaic Idealize.ShloMosaic.TcCoe Idealize.SL.Sem

/-- The layer as the kernel computes it: project, aggregate over the graph, add the bias, clamp at zero. -/
def layer (x : FVec Ideal S100000x128 .f32) (w : FVec Ideal S128x128 .f32) (b : FVec Ideal S128 .f32)
    (ei : (⟨S2x600000, .i32⟩ : BufTy).Contents (Elt Ideal)) : FVec Ideal S100000x128 .f32 :=
  BiasRelu.biased (Cert.Gcn.aggregate (F := Ideal) (Project.rowsTimes x w) ei) b

variable (m : (ℓ : Loc nD τ sig) → Buf (Elt Ideal) ℓ) (ρ : Dev nD → PrngReg)

/-- The second region's output array after the run is the layer of the argument arrays as launched. -/
theorem result_eq (c : Dev nD) :
    (dat1 (V5 m ρ) c).arrAt 2 cfg1.N
      = layer (m ((c.tc : Thread nD τ).loc main_arg0)) (m ((c.tc : Thread nD τ).loc main_arg1))
          (m ((c.tc : Thread nD τ).loc main_arg2)) (m ((c.tc : Thread nD τ).loc main_arg3)) := by
  rw [BiasRelu.final (V5 m ρ) c, Stages.entry1_aggregate, Stages.entry1_bias, Stages.exit0_sources, Stages.exit0_targets,
    Stages.exit0_weights, Stages.exit0_output, Stages.entry0_sources, Stages.entry0_targets, Stages.entry0_weights,
    Project.final (V3 m ρ) c, Stages.entry0_x, Stages.entry0_w]
  rfl

/-- Every weakly fair execution of the idealized kernel terminates with the result at the layer of the
    arguments, the arguments unchanged. -/
theorem run : θ_run defs (onTc (τ := τ) (main (F := Ideal))) ⟨m, fun _ => 0, ρ⟩ (fun r => ∀ c : Dev nD,
      r.2.mem ((c.tc : Thread nD τ).loc main_v44)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Whole.run_result m ρ)

end Cert.KernelIdeal.Result

end
-- ==== Proof.RefRun.lean ====
/-
  The reference's run, read back.

  The reference is a straight line of 63 host operations (the two functions it calls stand inlined at their
  calls). Every weakly fair execution of it terminates with each buffer at the fold of the operations' results
  over the launch contents. Read at the result buffer that fold is: the projection x · W as ONE host matrix
  product, aggregated over the graph, the bias added and the maximum with zero taken — the specification's
  functions applied to the four argument arrays. The host's matrix product, on the extended reals, is at (r, c)
  the sum over k < 128 of x (r, k) · W (k, c).
-/
import proofs.«142149_j18708877541515_1_alg».proof.Proof.Gen.ReferenceIdeal
import proofs.«142149_j18708877541515_1_alg».proof.Proof.Spec
import proofs.«142149_j18708877541515_1_alg».proof.Proof.LibContract
import Idealize.ShloMosaic.Lib.StableHlo.Run
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The program's 63 operations, in order. -/
abbrev ops : List (HloOp τ sig (Elt F)) :=
  [ nullary main_v0 (iotaInDim S100000 32 0),
    unary main_arg3 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg3 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S700000 ![] bcast_S_S700000 : (⟨S_, .i32⟩ : BufTy).Contents (Elt F) → (⟨S700000, .i32⟩ : BufTy).Contents (Elt F)),
    binary main_v3 main_v15 main_v16 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v17 (broadcastInDim S700000 ![] bcast_S_S700000 : (⟨S_, .i32⟩ : BufTy).Contents (Elt F) → (⟨S700000, .i32⟩ : BufTy).Contents (Elt F)),
    binary main_v3 main_v17 main_v18 (addi : (⟨S700000, .i32⟩ : BufTy).Contents (Elt F) → (⟨S700000, .i32⟩ : BufTy).Contents (Elt F) → (⟨S700000, .i32⟩ : BufTy).Contents (Elt F)),
    ternary main_v16 main_v18 main_v3 main_v19 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v19 main_v20 (broadcastInDim S700000x1 ![0] bcast_S700000_S700000x1_0 : (⟨S700000, .i32⟩ : BufTy).Contents (Elt F) → (⟨S700000x1, .i32⟩ : BufTy).Contents (Elt F)),
    binary main_v14 main_v20 main_v21 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_4 (constantI S_ 32 0#32),
    unary main_c_4 main_v22 (broadcastInDim S700000 ![] bcast_S_S700000 : (⟨S_, .i32⟩ : BufTy).Contents (Elt F) → (⟨S700000, .i32⟩ : BufTy).Contents (Elt F)),
    binary main_v6 main_v22 main_v23 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (addi : (⟨S700000, .i32⟩ : BufTy).Contents (Elt F) → (⟨S700000, .i32⟩ : BufTy).Contents (Elt F) → (⟨S700000, .i32⟩ : BufTy).Contents (Elt F)),
    ternary main_v23 main_v25 main_v6 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v26 main_v27 (broadcastInDim S700000x1 ![0] bcast_S700000_S700000x1_0 : (⟨S700000, .i32⟩ : BufTy).Contents (Elt F) → (⟨S700000x1, .i32⟩ : BufTy).Contents (Elt F)),
    binary main_v14 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v21 main_v28 main_v29 (mulf : (⟨S700000, .f32⟩ : BufTy).Contents (Elt F) → (⟨S700000, .f32⟩ : BufTy).Contents (Elt F) → (⟨S700000, .f32⟩ : BufTy).Contents (Elt F)),
    binary main_arg0 main_arg1 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S700000 ![] bcast_S_S700000 : (⟨S_, .i32⟩ : BufTy).Contents (Elt F) → (⟨S700000, .i32⟩ : BufTy).Contents (Elt F)),
    binary main_v3 main_v31 main_v32 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (addi : (⟨S700000, .i32⟩ : BufTy).Contents (Elt F) → (⟨S700000, .i32⟩ : BufTy).Contents (Elt F) → (⟨S700000, .i32⟩ : BufTy).Contents (Elt F)),
    ternary main_v32 main_v34 main_v3 main_v35 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v35 main_v36 (broadcastInDim S700000x1 ![0] bcast_S700000_S700000x1_0 : (⟨S700000, .i32⟩ : BufTy).Contents (Elt F) → (⟨S700000x1, .i32⟩ : BufTy).Contents (Elt F)),
    binary main_v30 main_v36 main_v37 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v38 (broadcastInDim S700000x1 ![0] bcast_S700000_S700000x1_0 : (⟨S700000, .f32⟩ : BufTy).Contents (Elt F) → (⟨S700000x1, .f32⟩ : BufTy).Contents (Elt F)),
    unary main_v38 main_v39 (broadcastInDim S700000x128 ![0, 1] bcast_S700000x1_S700000x128_0_1 : (⟨S700000x1, .f32⟩ : BufTy).Contents (Elt F) → (⟨S700000x128, .f32⟩ : BufTy).Contents (Elt F)),
    binary main_v37 main_v39 main_v40 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S700000x1 ![0] bcast_S700000_S700000x1_0 : (⟨S700000, .i32⟩ : BufTy).Contents (Elt F) → (⟨S700000x1, .i32⟩ : BufTy).Contents (Elt F)),
    ternary main_v41 main_v42 main_v40 main_v43 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

set_option maxRecDepth 8192 in
set_option maxHeartbeats 4000000 in
/-- The program is that line of operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
set_option maxHeartbeats 25200000 in
/-- Every weakly fair execution terminates with the result at the specification's functions of the four
    arguments — the projection as one host matrix product — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = Cert.Gcn.biasClamp (F := F)
            (Cert.Gcn.aggregate (F := F)
              (Host.dotGeneral dot_S100000x128_S128x128_S100000x128_1_0_0_1_n_n none
                (m ((c.tc : Thread nD τ).loc main_arg0)) (m ((c.tc : Thread nD τ).loc main_arg1)))
              (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

/-- The whole product's left index keeps the result's row. -/
theorem lhs_row (j : S100000x128.Idx) (q : dot_S100000x128_S128x128_S100000x128_1_0_0_1_n_n.contr.Idx) :
    (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The whole product's right index keeps the result's column. -/
theorem rhs_col (j : S100000x128.Idx) (q : dot_S100000x128_S128x128_S100000x128_1_0_0_1_n_n.contr.Idx) :
    (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- On the extended reals the host's matrix product is, entry by entry, the sum over the shared coordinate. -/
theorem dotGeneral_apply (x : FVec Ideal S100000x128 .f32) (w : FVec Ideal S128x128 .f32) (i : S100000x128.Idx) :
    Host.dotGeneral dot_S100000x128_S128x128_S100000x128_1_0_0_1_n_n none x w i
      = ∑ k : Fin 128, x (ix2 (i 0) k) * w (ix2 k (i 1)) := by
  simp only [Host.dotGeneral]
  rw [Ideal.dotGeneral_apply]
  exact Contract2.sum_contr_eq_sum_fin dot_S100000x128_S128x128_S100000x128_1_0_0_1_n_n rfl rfl rfl rfl lhs_row rhs_col x w i

end Cert.ReferenceIdeal.Hand

end
-- ==== Proof.Bridge.lean ====
/-
  The two programs compute one function.

  They share the graph part word for word. Two identities on the extended reals join the rest: the host's one
  matrix product is, entry by entry, the sum ∑ k < 128, x (r, k) · W (k, c) that the kernel's row blocks
  compute (no order of summation is involved: both are the same finite sum); and the reference's closing step
  — the bias broadcast as one row over all rows, added, then the maximum with a broadcast zero — is at (r, c)
  max (a (r, c) + b c, 0), the kernel's. No finiteness of the inputs is used.
-/
import proofs.«142149_j18708877541515_1_alg».proof.Proof.Result
import proofs.«142149_j18708877541515_1_alg».proof.Proof.RefRun

noncomputable section

namespace Cert.Bridge

open Idealize.ShloMosaic Idealize.ShloMosaic.ValueIdx
open Cert.ReferenceIdeal Cert.ReferenceIdeal.Gen

/-- The host's matrix product is the product the kernel's row blocks compute. -/
theorem product_eq (x : FVec Ideal S100000x128 .f32) (w : FVec Ideal S128x128 .f32) :
    Host.dotGeneral dot_S100000x128_S128x128_S100000x128_1_0_0_1_n_n none x w = Cert.KernelIdeal.Project.rowsTimes x w := by
  funext i
  rw [Cert.ReferenceIdeal.Hand.dotGeneral_apply]
  rfl

/-- The reference's closing step is the kernel's clamped sum. -/
theorem closing_eq (a : FVec Ideal S100000x128 .f32) (b : FVec Ideal S128 .f32) :
    Cert.Gcn.biasClamp (F := Ideal) a b = Cert.KernelIdeal.BiasRelu.biased a b := by
  funext i
  obtain ⟨p, q, rfl⟩ : ∃ (p : Fin 100000) (q : Fin 128), i = ix2 p q := ⟨i 0, i 1, eq_ix2 i⟩
  unfold Cert.Gcn.biasClamp Cert.KernelIdeal.BiasRelu.biased
  rw [maximumf_apply, addf_apply,
    broadcastInDim_apply _ bcast_S1x128_S100000x128_0_1 _ (ix2 p q) (ix2 (0 : Fin 1) q)
      (fun ax => by match ax with | ⟨0, _⟩ => rfl | ⟨1, _⟩ => rfl),
    broadcastInDim_apply _ bcast_S128_S1x128_1 b (ix2 (0 : Fin 1) q) (ix1 q)
      (fun ax => by match ax with | ⟨0, _⟩ => rfl),
    broadcastInDim_apply _ bcast_S_S100000x128 _ (ix2 p q) ix0 (fun ax => ax.elim0)]
  rfl

/-- The reference's result term is the kernel's layer of the same arguments. -/
theorem layer_eq (x : FVec Ideal S100000x128 .f32) (w : FVec Ideal S128x128 .f32) (b : FVec Ideal S128 .f32)
    (ei : (⟨S2x600000, .i32⟩ : BufTy).Contents (Elt Ideal)) :
    Cert.Gcn.biasClamp (F := Ideal)
        (Cert.Gcn.aggregate (F := Ideal) (Host.dotGeneral dot_S100000x128_S128x128_S100000x128_1_0_0_1_n_n none x w) ei) b
      = Cert.KernelIdeal.Result.layer x w b ei := by
  rw [closing_eq, product_eq]
  rfl

end Cert.Bridge

end
-- ==== Proof.lean ====
/-
  A graph-convolution layer: the tiled kernel against the plain reference, on the extended reals.

  Both programs take node features x [100000, 128], a matrix W [128, 128], a bias b [128] and an edge list
  [2, 600000], and compute max (Â (x · W) + b, 0), where Â adds to every node the rows of its in-neighbours
  (and its own), each scaled by the product of the two endpoints' degree^(-1/2). They compute the degrees,
  the weights and the aggregation by the same host operations, word for word. They differ in two places. The
  kernel computes x · W in 20 row blocks of 5000 rows on the matrix unit (after a change of float format, the
  identity here) into a zero accumulator; the reference by one host matrix product: at every entry both are
  the sum over k < 128 of x (r, k) · W (k, c). The kernel adds the bias and clamps at zero again in 20 row
  blocks, repeating the bias over the rows of a block; the reference broadcasts the bias over all rows, adds,
  and takes the maximum with a broadcast zero: at every entry both are max (a (r, c) + b c, 0). The row
  blocks of each region tile the 100000 rows, so each region's output array is one function of its input
  arrays, and the result is one function of the four arguments. No law that needs finite values is used, so
  the precondition is never opened.

  The three programs run (terminate without a fault, arguments unchanged): the two kernels by their frames,
  the reference as a straight line of host operations. The idealization rewrote no operation.
-/
import proofs.«142149_j18708877541515_1_alg».proof.Defs
import proofs.«142149_j18708877541515_1_alg».proof.Proof.Gen.Kernel
import proofs.«142149_j18708877541515_1_alg».proof.Proof.Gen.Kernel.Skeleton
import proofs.«142149_j18708877541515_1_alg».proof.Proof.Gen.Kernel.Launch
import proofs.«142149_j18708877541515_1_alg».proof.Proof.Gen.Kernel.Points
import proofs.«142149_j18708877541515_1_alg».proof.Proof.Gen.Kernel.Frame
import proofs.«142149_j18708877541515_1_alg».proof.Proof.Gen.KernelIdeal
import proofs.«142149_j18708877541515_1_alg».proof.Proof.Gen.KernelIdeal.Skeleton
import proofs.«142149_j18708877541515_1_alg».proof.Proof.Gen.KernelIdeal.Launch
import proofs.«142149_j18708877541515_1_alg».proof.Proof.Gen.KernelIdeal.Points
import proofs.«142149_j18708877541515_1_alg».proof.Proof.Gen.KernelIdeal.Frame
import proofs.«142149_j18708877541515_1_alg».proof.Proof.Gen.ReferenceIdeal
import proofs.«142149_j18708877541515_1_alg».proof.Proof.Gen.Pre_finite_inputs
import proofs.«142149_j18708877541515_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote nothing, so there is nothing to preserve. -/
theorem preserves : Cert.preserves_Kernel_KernelIdeal := trivial

/-- From memories that agree on the four arguments both idealized programs end with the layer of those
    arguments in their result arrays: the kernel by its two regions' closed forms around the shared
    aggregation, the reference by its run and the two identities that join the sides. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.Bridge.layer_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
